-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x64 : Shape := ⟨2, ![1600000, 64]⟩
abbrev S1x64 : Shape := ⟨2, ![1, 64]⟩
abbrev S100000 : Shape := ⟨1, ![100000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S1x64 : S_.BroadcastsInDim S1x64 (![] : Fin 0 → Fin S1x64.rank)
  reducesTo_S1x64_S_d0_1 : S1x64.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S256 .f32) (main_arg7 : FVec F S256x64 .f32) (main_arg8 : FVec F S64 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg7
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S1600000x64 .f32) (main_arg3 : FVec F S1x64 .f32) (main_arg4 : IVec S100000 32) (main_arg5 : FVec F S128x256 .f32) (main_arg6 : FVec F S256 .f32) (main_arg7 : FVec F S256x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x64 .f32 := Host.absf main_arg2
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_arg7 main_arg8 main_v13 main_v16
-- ==== Kernel.lean ====
abbrev S100000x64 : Shape := ⟨2, ![100000, 64]⟩
abbrev S2x1600000 : Shape := ⟨2, ![2, 1600000]⟩
abbrev S1600000x64 : Shape := ⟨2, ![1600000, 64]⟩
abbrev S1x64 : Shape := ⟨2, ![1, 64]⟩
abbrev S100000 : Shape := ⟨1, ![100000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S64x256 : Shape := ⟨2, ![64, 256]⟩
abbrev S1x256 : Shape := ⟨2, ![1, 256]⟩
abbrev S5000x64 : Shape := ⟨2, ![5000, 64]⟩
abbrev S5000x256 : Shape := ⟨2, ![5000, 256]⟩

abbrev nBuf : Space → Nat
  | .hbm => 20
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x64, .f32⟩
  | .hbm, ⟨3, _⟩ => ⟨S1x64, .f32⟩
  | .hbm, ⟨4, _⟩ => ⟨S100000, .i32⟩
  | .hbm, ⟨5, _⟩ => ⟨S128x256, .f32⟩
  | .hbm, ⟨6, _⟩ => ⟨S256, .f32⟩
  | .hbm, ⟨7, _⟩ => ⟨S256x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000x64, .f32⟩
  | .hbm, ⟨13, _⟩ => ⟨S1600000x1, .i32⟩
  | .hbm, ⟨14, _⟩ => ⟨S100000x64, .f32⟩
  | .hbm, ⟨15, _⟩ => ⟨S64x256, .f32⟩
  | .hbm, ⟨16, _⟩ => ⟨S64x256, .f32⟩
  | .hbm, ⟨17, _⟩ => ⟨S1x256, .f32⟩
  | .hbm, ⟨18, _⟩ => ⟨S1x64, .f32⟩
  | .hbm, ⟨19, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x256, .f32⟩
  | .local _ .vmem, ⟨5, _⟩ => ⟨S64x256, .f32⟩
  | .local _ .vmem, ⟨6, _⟩ => ⟨S1x256, .f32⟩
  | .local _ .vmem, ⟨7, _⟩ => ⟨S256x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_0_0 : S2x1600000.Slices ![0, 0] S1x1600000
  shapeCasts_S1x1600000_S1600000 : S1x1600000.ShapeCasts S1600000
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  slices_S128x256_S64x256_0_0 : S128x256.Slices ![0, 0] S64x256
  slices_S128x256_S64x256_64_0 : S128x256.Slices ![64, 0] S64x256
  shapeCasts_S256_S1x256 : S256.ShapeCasts S1x256
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000x64_S1600000x1_S1600000x64_1_0_0_1_wf : ScatterDims.WF S100000x64 S1600000x1 S1600000x64 [1] [0] [0] 1
  dot_S5000x64_S64x256_S5000x256_1_0_0_1_n_n_wf : DotDims.WF S5000x64 S64x256 S5000x256 [1] [0] [0] [1] [] []
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .f32 = 32 ∨ (Rect.block (s := S256x64) S256x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)

variable [Facts₀]

def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x64 : Shape := ⟨2, ![1600000, 64]⟩
abbrev S1x64 : Shape := ⟨2, ![1, 64]⟩
abbrev S100000 : Shape := ⟨1, ![100000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x128 : Shape := ⟨2, ![100000, 128]⟩
abbrev S100000x256 : Shape := ⟨2, ![100000, 256]⟩
abbrev S1x256 : Shape := ⟨2, ![1, 256]⟩

abbrev nBuf : Space → Nat
  | .hbm => 27
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x64, .f32⟩
  | .hbm, ⟨3, _⟩ => ⟨S1x64, .f32⟩
  | .hbm, ⟨4, _⟩ => ⟨S100000, .i32⟩
  | .hbm, ⟨5, _⟩ => ⟨S128x256, .f32⟩
  | .hbm, ⟨6, _⟩ => ⟨S256, .f32⟩
  | .hbm, ⟨7, _⟩ => ⟨S256x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000x64, .f32⟩
  | .hbm, ⟨13, _⟩ => ⟨S1600000x1, .i32⟩
  | .hbm, ⟨14, _⟩ => ⟨S100000x64, .f32⟩
  | .hbm, ⟨15, _⟩ => ⟨S100000x128, .f32⟩
  | .hbm, ⟨16, _⟩ => ⟨S100000x256, .f32⟩
  | .hbm, ⟨17, _⟩ => ⟨S1x256, .f32⟩
  | .hbm, ⟨18, _⟩ => ⟨S100000x256, .f32⟩
  | .hbm, ⟨19, _⟩ => ⟨S100000x256, .f32⟩
  | .hbm, ⟨20, _⟩ => ⟨S_, .f32⟩
  | .hbm, ⟨21, _⟩ => ⟨S100000x256, .f32⟩
  | .hbm, ⟨22, _⟩ => ⟨S100000x256, .f32⟩
  | .hbm, ⟨23, _⟩ => ⟨S100000x64, .f32⟩
  | .hbm, ⟨24, _⟩ => ⟨S1x64, .f32⟩
  | .hbm, ⟨25, _⟩ => ⟨S100000x64, .f32⟩
  | .hbm, ⟨26, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_cst : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  concatenates_S100000x64_S100000x64_S100000x128_d1 : Shape.Concatenates [S100000x64, S100000x64] S100000x128 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000x64_S1600000x1_S1600000x64_1_0_0_1_wf : ScatterDims.WF S100000x64 S1600000x1 S1600000x64 [1] [0] [0] 1
  dot_S100000x128_S128x256_S100000x256_1_0_0_1_n_n_wf : DotDims.WF S100000x128 S128x256 S100000x256 [1] [0] [0] [1] [] []
  dot_S100000x256_S256x64_S100000x64_1_0_0_1_n_n_wf : DotDims.WF S100000x256 S256x64 S100000x64 [1] [0] [0] [1] [] []

variable [Facts₀]

def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.LibPlainMatmul.lean ====
/-
  A matrix product read at an index given by coordinates, at the ideal values, for any extents and element formats:
  for the plain dimension numbers — an `M × K` left operand and a `K × N` right operand contracted over the left's
  columns and the right's rows, no batch axis — the product accumulated into zero is, at `(i, j)`,
  the sum over `k` of `l (i, k) · r (k, j)`. The sum over the contraction shape's one-coordinate indices is
  re-indexed over `Fin K`.
-/
import Idealize.ShloMosaic.Lib.ValueIdx
import Idealize.ShloMosaic.PureOps.Ideal.Laws

namespace Cert.LibPlainMatmul

open Idealize.ShloMosaic Idealize.ShloMosaic.ValueIdx

/-- The product of an `M × K` and a `K × N` matrix into a zero accumulator, read at `(i, j)`. -/
theorem matmul_zero_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    FloatOps.matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        split
        · exact absurd ‹_› List.not_mem_nil
        · split
          · rfl
          · exact absurd (List.mem_singleton.mpr rfl) ‹_›
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        split
        · exact absurd ‹_› List.not_mem_nil
        · split
          · rfl
          · exact absurd (List.mem_singleton.mpr rfl) ‹_›)
  rw [el, er]

end Cert.LibPlainMatmul
-- ==== Proof.Payload.lean ====
/-
  What the kernel body stores, read at one entry of its block.

  At one grid point the body holds a block of 5000 rows of node features `x0`, the matching 5000 rows of aggregated edge
  features `x1`, the upper and lower halves `x2`, `x3` of the first-layer weights (64 × 256 each), the first bias as a row
  `x4`, the second-layer weights `x5` (256 × 64) and the second bias as a row `x6`. On the extended reals the roundings to
  bf16 in front of the three matrix products are the identity, each product into a zero accumulator is the plain sum
  over its contracted axis, a row broadcast down the block reads the row, and the rectifier is the maximum with zero. So
  entry `(p, q)` of what is stored is

    Σ_{h<256} max (Σ_{k<64} x0(p,k)·x2(k,h) + Σ_{k<64} x1(p,k)·x3(k,h) + x4(0,h)) 0 · x5(h,q) + x6(0,q).
-/
import proofs.«115172_j50371376447827_1_alg».proof.Proof.Gen.KernelIdeal.Skeleton
import proofs.«115172_j50371376447827_1_alg».proof.Proof.LibPlainMatmul
import Idealize.ShloMosaic.Lib.ValueLayout
import Idealize.ShloMosaic.Lib.ValueIdx
import Idealize.ShloMosaic.Lib.Pipeline.Value

noncomputable section

namespace Cert.KernelIdeal.Point

open Cert.KernelIdeal Cert.KernelIdeal.Gen Idealize.ShloMosaic Idealize.ShloMosaic.ValueIdx

/-- Entry `(p, q)` of the stored block, from the seven loaded blocks. -/
theorem stored_apply (x0 x1 : Vec Ideal S5000x64 .f32) (x2 x3 : Vec Ideal S64x256 .f32) (x4 : Vec Ideal S1x256 .f32)
    (x5 : Vec Ideal S256x64 .f32) (x6 : Vec Ideal S1x64 .f32) (p : Fin 5000) (q : Fin 64) :
    k0_pay1 (F := Ideal) x0 x1 x2 x3 x4 x5 x6 (ix2 p q)
      = (∑ h : Fin 256, max ((∑ k : Fin 64, x0 (ix2 p k) * x2 (ix2 k h)) + (∑ k : Fin 64, x1 (ix2 p k) * x3 (ix2 k h))
            + x4 (ix2 (0 : Fin 1) h)) (Ideal.ofBits .f32 0x00000000#32) * x5 (ix2 h q))
        + x6 (ix2 (0 : Fin 1) q) := by
  unfold k0_pay1
  dsimp only [matmul]
  -- the last addition, the second product, and the second bias row broadcast down the block
  rw [addf_apply, Cert.LibPlainMatmul.matmul_zero_apply dot_S5000x256_S256x64_S5000x64_1_0_0_1_n_n rfl rfl rfl rfl rfl rfl,
    broadcastTo_1b_ab_apply]
  -- under the sum over the hidden units: the roundings, the rectifier, the two first-layer products, the first bias row
  simp only [shapeCast_self, truncf_apply, maximumf_apply, addf_apply, broadcast_apply,
    Cert.LibPlainMatmul.matmul_zero_apply dot_S5000x64_S64x256_S5000x256_1_0_0_1_n_n rfl rfl rfl rfl rfl rfl,
    broadcastTo_1b_ab_apply]
  rfl

end Cert.KernelIdeal.Point

end
-- ==== Proof.Mlp.lean ====
/-
  The node update as ONE function of its arrays, index by index, on the extended reals.

  For node features `x` and aggregated edge features `agg` (both 100000 × 64), first-layer weights `W1` (128 × 256)
  and bias `b1`, second-layer weights `W2` (256 × 64) and bias `b2`:

    hidden i h = max (Σ_{k<64} x(i,k)·W1(k,h) + Σ_{k<64} agg(i,k)·W1(64+k,h) + b1(h)) 0
    out (i,j)  = Σ_{h<256} hidden i h · W2(h,j) + b2(j)

  The first layer is written with the contraction over the 128 rows of `W1` already split into its upper and its lower
  64 rows: a program that multiplies `x` and `agg` by the two halves of `W1` separately computes exactly these two sums,
  and a program that multiplies the row `[x(i,·) | agg(i,·)]` of length 128 by all of `W1` computes their total, because a
  sum over 128 = 64 + 64 terms is the sum of its first 64 and its last 64 terms. That holds in every commutative additive
  monoid, so on the extended reals with their infinities as well: no finiteness of the entries is used anywhere.
-/
import Idealize.ShloMosaic.Lib.ValueIdx
import Idealize.ShloMosaic.PureOps.Ideal

noncomputable section

namespace Cert.Mlp

open Idealize.ShloMosaic Idealize.ShloMosaic.ValueIdx

/-- Row `k` of the upper half of a 128-row matrix. -/
def lo (k : Fin 64) : Fin 128 := ⟨k.val, by have := k.isLt; omega⟩

/-- Row `k` of the lower half of a 128-row matrix: row `64 + k`. -/
def hi (k : Fin 64) : Fin 128 := ⟨64 + k.val, by have := k.isLt; omega⟩

/-- A sum over 128 terms is the sum over the first 64 plus the sum over the last 64, in any commutative additive
    monoid. -/
theorem sum_halves {M : Type*} [AddCommMonoid M] (f : Fin 128 → M) :
    ∑ k : Fin 128, f k = (∑ k : Fin 64, f (lo k)) + ∑ k : Fin 64, f (hi k) := by
  have h := Fin.sum_univ_add (M := M) (a := 64) (b := 64) f
  refine h.trans ?_
  congr 1

/-- Hidden unit `h` of node `i`: the rectified affine map of the node's own features and its aggregated edge
    features, the two halves of `W1` applied to them separately. The zero is the f32 word 0x00000000. -/
def hidden (x agg : (⟨2, ![100000, 64]⟩ : Shape).Idx → EReal) (W1 : (⟨2, ![128, 256]⟩ : Shape).Idx → EReal)
    (b1 : (⟨1, ![256]⟩ : Shape).Idx → EReal) (i : Fin 100000) (h : Fin 256) : EReal :=
  max ((∑ k : Fin 64, x (ix2 i k) * W1 (ix2 (lo k) h)) + (∑ k : Fin 64, agg (ix2 i k) * W1 (ix2 (hi k) h))
        + b1 (ix1 h))
    (Ideal.ofBits .f32 0x00000000#32)

/-- Output feature `j 1` of node `j 0`: the second affine layer applied to the node's hidden units. -/
def out (x agg : (⟨2, ![100000, 64]⟩ : Shape).Idx → EReal) (W1 : (⟨2, ![128, 256]⟩ : Shape).Idx → EReal)
    (b1 : (⟨1, ![256]⟩ : Shape).Idx → EReal) (W2 : (⟨2, ![256, 64]⟩ : Shape).Idx → EReal)
    (b2 : (⟨1, ![64]⟩ : Shape).Idx → EReal) : (⟨2, ![100000, 64]⟩ : Shape).Idx → EReal := fun j =>
  (∑ h : Fin 256, hidden x agg W1 b1 (j 0) h * W2 (ix2 h (j 1))) + b2 (ix1 (j 1))

/-- The output at node `i`, feature `q`, with the coordinates written out. -/
theorem out_apply (x agg : (⟨2, ![100000, 64]⟩ : Shape).Idx → EReal) (W1 : (⟨2, ![128, 256]⟩ : Shape).Idx → EReal)
    (b1 : (⟨1, ![256]⟩ : Shape).Idx → EReal) (W2 : (⟨2, ![256, 64]⟩ : Shape).Idx → EReal)
    (b2 : (⟨1, ![64]⟩ : Shape).Idx → EReal) (i : Fin 100000) (q : Fin 64) :
    out x agg W1 b1 W2 b2 (ix2 i q) = (∑ h : Fin 256, hidden x agg W1 b1 i h * W2 (ix2 h q)) + b2 (ix1 q) := rfl

end Cert.Mlp

end
-- ==== Proof.Entry.lean ====
/-
  The arrays as the kernel's grid finds them.

  Before the grid runs, the host has prepared five of the seven arrays its windows stage:
  * the aggregated edge features — every edge's feature row added into the row of the node that the first row of the
    edge index names, starting from zeros (one scatter-add; it is kept as ONE term here and never opened, because the
    reference computes the very same term);
  * the upper 64 rows and the lower 64 rows of the first-layer weights, cut out of the 128 × 256 matrix;
  * the two bias vectors, each re-shaped to a one-row matrix.
  The node features and the second-layer weights are staged as they were passed. Each prepared array is read here at an
  index: row `k` of the upper half is row `k` of the matrix, row `k` of the lower half is row `64 + k`, and entry `(0, h)` of
  a bias row is entry `h` of the bias vector.
-/
import proofs.«115172_j50371376447827_1_alg».proof.Proof.Gen.KernelIdeal.Frame
import proofs.«115172_j50371376447827_1_alg».proof.Proof.Mlp
import Idealize.ShloMosaic.Lib.StableHlo.Run
import Idealize.ShloMosaic.Lib.ValueIdx
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.ValueIdx

/-- The aggregated edge features as a function of the edge index and the edge features: the rows of the edge features
    added, from zeros, into the rows named by the first row of the edge index. -/
def agg (ei : (⟨S2x1600000, .i32⟩ : BufTy).Contents (Elt Ideal)) (ea : (⟨S1600000x64, .f32⟩ : BufTy).Contents (Elt Ideal)) :
    (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0
      (shapeCast _ (extractStridedSlice S1x1600000 ![0, 0] ei slices_S2x1600000_S1x1600000_0_0) shapeCasts_S1x1600000_S1600000))
    ea

variable (m : (ℓ : Loc nD τ sig) → Buf (Elt Ideal) ℓ)

/-- The second window's array holds the aggregated edge features. -/
theorem V_agg (c : Dev nD) :
    (V m c main_v4 : S100000x64.Idx → EReal) = agg (m ((c : Thread nD τ).loc main_arg1)) (m ((c : Thread nD τ).loc main_arg2)) := by
  dsimp only [Gen.V, Gen.hostOps0]
  after_results <;> rfl

/-- The same, read at an index. -/
theorem V_agg_apply (c : Dev nD) (i : S100000x64.Idx) :
    (V m c main_v4 : S100000x64.Idx → EReal) i
      = agg (m ((c : Thread nD τ).loc main_arg1)) (m ((c : Thread nD τ).loc main_arg2)) i :=
  congrFun (V_agg m c) i

/-- The third window's array is the upper 64 rows of the first-layer weights. -/
theorem V_upper (c : Dev nD) :
    (V m c main_v5 : S64x256.Idx → EReal)
      = extractStridedSlice S64x256 ![0, 0] (m ((c : Thread nD τ).loc main_arg5)) slices_S128x256_S64x256_0_0 := by
  dsimp only [Gen.V, Gen.hostOps0]
  after_results <;> rfl

/-- The fourth window's array is the lower 64 rows of the first-layer weights. -/
theorem V_lower (c : Dev nD) :
    (V m c main_v6 : S64x256.Idx → EReal)
      = extractStridedSlice S64x256 ![64, 0] (m ((c : Thread nD τ).loc main_arg5)) slices_S128x256_S64x256_64_0 := by
  dsimp only [Gen.V, Gen.hostOps0]
  after_results <;> rfl

/-- The fifth window's array is the first bias as a one-row matrix. -/
theorem V_bias1 (c : Dev nD) :
    (V m c main_v7 : S1x256.Idx → EReal) = shapeCast S1x256 (m ((c : Thread nD τ).loc main_arg6)) shapeCasts_S256_S1x256 := by
  dsimp only [Gen.V, Gen.hostOps0]
  after_results <;> rfl

/-- The seventh window's array is the second bias as a one-row matrix. -/
theorem V_bias2 (c : Dev nD) :
    (V m c main_v8 : S1x64.Idx → EReal) = shapeCast S1x64 (m ((c : Thread nD τ).loc main_arg8)) shapeCasts_S64_S1x64 := by
  dsimp only [Gen.V, Gen.hostOps0]
  after_results <;> rfl

/-- Row `k` of the upper half is row `k` of the weights. -/
theorem V_upper_apply (c : Dev nD) (k : Fin 64) (h : Fin 256) :
    (V m c main_v5 : S64x256.Idx → EReal) (ix2 k h) = m ((c : Thread nD τ).loc main_arg5) (ix2 (Cert.Mlp.lo k) h) := by
  rw [V_upper]
  exact slice2_axis0_apply 0 _ slices_S128x256_S64x256_0_0 k h (Cert.Mlp.lo k) (Nat.zero_add _).symm

/-- Row `k` of the lower half is row `64 + k` of the weights. -/
theorem V_lower_apply (c : Dev nD) (k : Fin 64) (h : Fin 256) :
    (V m c main_v6 : S64x256.Idx → EReal) (ix2 k h) = m ((c : Thread nD τ).loc main_arg5) (ix2 (Cert.Mlp.hi k) h) := by
  rw [V_lower]
  exact slice2_axis0_apply 64 _ slices_S128x256_S64x256_64_0 k h (Cert.Mlp.hi k) rfl

/-- Entry `(u, h)` of the first bias row is entry `h` of the first bias. -/
theorem V_bias1_apply (c : Dev nD) (u : Fin 1) (h : Fin 256) :
    (V m c main_v7 : S1x256.Idx → EReal) (ix2 u h) = m ((c : Thread nD τ).loc main_arg6) (ix1 h) := by
  rw [V_bias1]
  exact shapeCast_a_1a_apply _ shapeCasts_S256_S1x256 u h

/-- Entry `(u, q)` of the second bias row is entry `q` of the second bias. -/
theorem V_bias2_apply (c : Dev nD) (u : Fin 1) (q : Fin 64) :
    (V m c main_v8 : S1x64.Idx → EReal) (ix2 u q) = m ((c : Thread nD τ).loc main_arg8) (ix1 q) := by
  rw [V_bias2]
  exact shapeCast_a_1a_apply _ shapeCasts_S64_S1x64 u q

end Cert.KernelIdeal.Entry

end
-- ==== Proof.Whole.lean ====
/-
  From blocks to the whole array.

  The grid has 20 points. At point `t` the body sees rows `5000·t … 5000·t + 4999` of the node features and of the
  aggregated edge features, and — at every point alike — both halves of the first-layer weights, the first bias row,
  the second-layer weights and the second bias row; it writes back rows `5000·t … 5000·t + 4999` of the result. Entry
  `(p, q)` of what it stores depends only on row `p` of its two feature blocks, so it is entry `(5000·t + p, q)` of ONE
  function of the whole arrays, `Cert.Mlp.out`. The 20 row blocks cover all 100000 rows (row `r` lies in block `r / 5000`),
  hence after the grid the result array holds `Cert.Mlp.out` of the argument arrays everywhere.
-/
import proofs.«115172_j50371376447827_1_alg».proof.Proof.Gen.KernelIdeal.Value
import proofs.«115172_j50371376447827_1_alg».proof.Proof.Payload
import proofs.«115172_j50371376447827_1_alg».proof.Proof.Entry
import proofs.«115172_j50371376447827_1_alg».proof.Proof.Mlp
import Idealize.ShloMosaic.Lib.Pipeline.Value
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem zero_offsets : (![0, 0] : Fin 2 → Nat) = fun _ => 0 := funext fun a => by fin_cases a <;> rfl

/-- The block index of every window at every grid point: the two feature windows and the result window are at row
    block `t`, the five parameter windows always at block `(0, 0)`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of row block `t` is row `5000·t + p` of the array. -/
def row (t : Fin cfg0.N) (p : Fin 5000) : Fin 100000 :=
  ⟨t.val * 5000 + p.val, by have h20 : cfg0.N = 20 := N_0; have := t.isLt; have := p.isLt; omega⟩

/-! ## The seven blocks at a point, read at an entry -/

/-- The node-feature block at point `t` is rows `5000·t …` of the node features. -/
theorem features_block (c : Dev nD) (t : Fin cfg0.N) (p : Fin 5000) (k : Fin 64) :
    iblk m c 0 t (ix2 p k) = m ((c : Thread nD τ).loc main_arg0) (ix2 (row t p) k) := by
  unfold iblk
  show V m c main_arg0 (((cfg0.win 0).blk t).view.emb (ix2 p k)) = _
  rw [V_main_arg0]
  refine congrArg _ (funext fun a => Fin.ext ?_)
  obtain ⟨e0, e1, -⟩ := block_index t
  match a with
  | ⟨0, _⟩ => show win0_0.index t (0 : Fin 2) * 5000 + 1 * p.val = t.val * 5000 + p.val; omega
  | ⟨1, _⟩ => show win0_0.index t (1 : Fin 2) * 64 + 1 * k.val = k.val; omega

/-- Row block `t` of ANY array the second window could stage, read at an entry. -/
theorem aggregate_rows (X : S100000x64.Idx → EReal) (t : Fin cfg0.N) (p : Fin 5000) (k : Fin 64) :
    ((cfg0.win 1).blk t).view.read (Elt Ideal) X (ix2 p k) = X (ix2 (row t p) k) := by
  show X (((cfg0.win 1).blk t).view.emb (ix2 p k)) = _
  refine congrArg X (funext fun a => Fin.ext ?_)
  obtain ⟨-, -, e0, e1, -⟩ := block_index t
  match a with
  | ⟨0, _⟩ => show win0_1.index t (0 : Fin 2) * 5000 + 1 * p.val = t.val * 5000 + p.val; omega
  | ⟨1, _⟩ => show win0_1.index t (1 : Fin 2) * 64 + 1 * k.val = k.val; omega

/-- The aggregate block at point `t` is rows `5000·t …` of the aggregated edge features. -/
theorem aggregate_block (c : Dev nD) (t : Fin cfg0.N) (p : Fin 5000) (k : Fin 64) :
    iblk m c 1 t (ix2 p k)
      = Entry.agg (m ((c : Thread nD τ).loc main_arg1)) (m ((c : Thread nD τ).loc main_arg2)) (ix2 (row t p) k) := by
  unfold iblk
  refine (aggregate_rows (V m c (Pipeline.arrRef spec0 1)) t p k).trans ?_
  exact Entry.V_agg_apply m c (ix2 (row t p) k)

/-- The upper-half block is, at every point, the upper 64 rows of the first-layer weights. -/
theorem upper_block (c : Dev nD) (t : Fin cfg0.N) (k : Fin 64) (h : Fin 256) :
    iblk m c 2 t (ix2 k h) = m ((c : Thread nD τ).loc main_arg5) (ix2 (Cert.Mlp.lo k) h) := by
  unfold iblk
  show V m c main_v5 (((cfg0.win 2).blk t).view.emb (ix2 k h)) = _
  have e : ((cfg0.win 2).blk t).view.emb (ix2 k h) = ix2 k h := funext fun a => Fin.ext (by
    obtain ⟨-, -, -, -, e0, e1, -⟩ := block_index t
    match a with
    | ⟨0, _⟩ => show win0_2.index t (0 : Fin 2) * 64 + 1 * k.val = k.val; omega
    | ⟨1, _⟩ => show win0_2.index t (1 : Fin 2) * 256 + 1 * h.val = h.val; omega)
  rw [e]
  exact Entry.V_upper_apply m c k h

/-- The lower-half block is, at every point, the lower 64 rows of the first-layer weights. -/
theorem lower_block (c : Dev nD) (t : Fin cfg0.N) (k : Fin 64) (h : Fin 256) :
    iblk m c 3 t (ix2 k h) = m ((c : Thread nD τ).loc main_arg5) (ix2 (Cert.Mlp.hi k) h) := by
  unfold iblk
  show V m c main_v6 (((cfg0.win 3).blk t).view.emb (ix2 k h)) = _
  have e : ((cfg0.win 3).blk t).view.emb (ix2 k h) = ix2 k h := funext fun a => Fin.ext (by
    obtain ⟨-, -, -, -, -, -, e0, e1, -⟩ := block_index t
    match a with
    | ⟨0, _⟩ => show win0_3.index t (0 : Fin 2) * 64 + 1 * k.val = k.val; omega
    | ⟨1, _⟩ => show win0_3.index t (1 : Fin 2) * 256 + 1 * h.val = h.val; omega)
  rw [e]
  exact Entry.V_lower_apply m c k h

/-- The first bias row's block is, at every point, the first bias. -/
theorem bias1_block (c : Dev nD) (t : Fin cfg0.N) (u : Fin 1) (h : Fin 256) :
    iblk m c 4 t (ix2 u h) = m ((c : Thread nD τ).loc main_arg6) (ix1 h) := by
  unfold iblk
  show V m c main_v7 (((cfg0.win 4).blk t).view.emb (ix2 u h)) = _
  have e : ((cfg0.win 4).blk t).view.emb (ix2 u h) = ix2 u h := funext fun a => Fin.ext (by
    obtain ⟨-, -, -, -, -, -, -, -, e0, e1, -⟩ := block_index t
    match a with
    | ⟨0, _⟩ => show win0_4.index t (0 : Fin 2) * 1 + 1 * u.val = u.val; omega
    | ⟨1, _⟩ => show win0_4.index t (1 : Fin 2) * 256 + 1 * h.val = h.val; omega)
  rw [e]
  exact Entry.V_bias1_apply m c u h

/-- The second-layer weights' block is, at every point, the second-layer weights. -/
theorem weights2_block (c : Dev nD) (t : Fin cfg0.N) (h : Fin 256) (q : Fin 64) :
    iblk m c 5 t (ix2 h q) = m ((c : Thread nD τ).loc main_arg7) (ix2 h q) := by
  unfold iblk
  show V m c main_arg7 (((cfg0.win 5).blk t).view.emb (ix2 h q)) = _
  rw [V_main_arg7]
  refine congrArg _ (funext fun a => Fin.ext ?_)
  obtain ⟨-, -, -, -, -, -, -, -, -, -, e0, e1, -⟩ := block_index t
  match a with
  | ⟨0, _⟩ => show win0_5.index t (0 : Fin 2) * 256 + 1 * h.val = h.val; omega
  | ⟨1, _⟩ => show win0_5.index t (1 : Fin 2) * 64 + 1 * q.val = q.val; omega

/-- The second bias row's block is, at every point, the second bias. -/
theorem bias2_block (c : Dev nD) (t : Fin cfg0.N) (u : Fin 1) (q : Fin 64) :
    iblk m c 6 t (ix2 u q) = m ((c : Thread nD τ).loc main_arg8) (ix1 q) := by
  unfold iblk
  show V m c main_v8 (((cfg0.win 6).blk t).view.emb (ix2 u q)) = _
  have e : ((cfg0.win 6).blk t).view.emb (ix2 u q) = ix2 u q := funext fun a => Fin.ext (by
    obtain ⟨-, -, -, -, -, -, -, -, -, -, -, -, e0, e1, -⟩ := block_index t
    match a with
    | ⟨0, _⟩ => show win0_6.index t (0 : Fin 2) * 1 + 1 * u.val = u.val; omega
    | ⟨1, _⟩ => show win0_6.index t (1 : Fin 2) * 64 + 1 * q.val = q.val; omega)
  rw [e]
  exact Entry.V_bias2_apply m c u q

/-- Entry `(p, q)` of the result block at point `t` sits at `(5000·t + p, q)` of the result array. -/
theorem result_entry (t : Fin cfg0.N) (p : Fin 5000) (q : Fin 64) :
    ((cfg0.win 7).blk t).view.emb (ix2 p q) = ix2 (row t p) q := funext fun a => Fin.ext (by
  obtain ⟨-, -, -, -, -, -, -, -, -, -, -, -, -, -, e0, e1⟩ := block_index t
  match a with
  | ⟨0, _⟩ => show win0_7.index t (0 : Fin 2) * 5000 + 1 * p.val = t.val * 5000 + p.val; omega
  | ⟨1, _⟩ => show win0_7.index t (1 : Fin 2) * 64 + 1 * q.val = q.val; omega)

/-! ## The result array -/

/-- The node update of the argument arrays as launched on core `c`. -/
def result (c : Dev nD) : S100000x64.Idx → EReal :=
  Cert.Mlp.out (m ((c : Thread nD τ).loc main_arg0))
    (Entry.agg (m ((c : Thread nD τ).loc main_arg1)) (m ((c : Thread nD τ).loc main_arg2)))
    (m ((c : Thread nD τ).loc main_arg5)) (m ((c : Thread nD τ).loc main_arg6))
    (m ((c : Thread nD τ).loc main_arg7)) (m ((c : Thread nD τ).loc main_arg8))

/-- If entry `(p, q)` of a block is entry `(5000·t + p, q)` of an array, then the block, as point `t` writes it back, is
    row block `t` of that array. -/
theorem block_of_entries (Y : S5000x64.Idx → EReal) (G : S100000x64.Idx → EReal) (t : Fin cfg0.N)
    (h : ∀ (p : Fin 5000) (q : Fin 64), Y (ix2 p q) = G (ix2 (row t p) q)) :
    (cfg0.win 7).cut (grid0.coords t) Y = ((cfg0.win 7).blk t).view.read (Elt Ideal) G := by
  funext y
  obtain ⟨p, q, rfl⟩ : ∃ (p : Fin 5000) (q : Fin 64), y = ix2 p q := ⟨y 0, y 1, eq_ix2 y⟩
  show Y (ix2 p q) = G (((cfg0.win 7).blk t).view.emb (ix2 p q))
  rw [result_entry]
  exact h p q

/-- What point `t` writes back is row block `t` of the node update. -/
theorem written_back (c : Dev nD) (t : Fin cfg0.N) :
    (dats m 0 c).flushed 7 t = ((cfg0.win 7).blk t).view.read (Elt Ideal) (result m c) := by
  rw [Value.flushed7]
  unfold out0_7
  rw [View.canon_unit_zero zero_offsets]
  simp only [View.ld_unit_zero (S := S5000x64) zero_offsets, View.ld_unit_zero (S := S64x256) zero_offsets,
    View.ld_unit_zero (S := S1x256) zero_offsets, View.ld_unit_zero (S := S256x64) zero_offsets,
    View.ld_unit_zero (S := S1x64) zero_offsets]
  refine block_of_entries (k0_pay1 (F := Ideal) (iblk m c 0 t) (iblk m c 1 t) (iblk m c 2 t) (iblk m c 3 t)
    (iblk m c 4 t) (iblk m c 5 t) (iblk m c 6 t)) (result m c) t (fun p q => ?_)
  unfold result
  rw [Cert.Mlp.out_apply]
  unfold Cert.Mlp.hidden
  refine (Point.stored_apply (iblk m c 0 t) (iblk m c 1 t) (iblk m c 2 t) (iblk m c 3 t) (iblk m c 4 t) (iblk m c 5 t)
    (iblk m c 6 t) p q).trans ?_
  simp only [features_block, aggregate_block, upper_block, lower_block, bias1_block, weights2_block, bias2_block]

/-- An index of the result array is in point `t`'s block iff each coordinate is in the block's range. -/
theorem mem_block (t : Fin cfg0.N) (i : S100000x64.Idx) :
    i ∈ ((cfg0.win 7).blk t).view.set ↔ ∀ a : Fin 2, win0_7.index t a * S5000x64.size a ≤ (i a).val
      ∧ (i a).val < win0_7.index t a * S5000x64.size a + S5000x64.size a := by
  show i ∈ ((View.whole main_v9).slice (win0_7.rect t)).set ↔ _
  rw [View.set_slice_whole, Rect.mem_set_unit]
  exact Iff.rfl

/-- Every index of the result array is in the block of the point its row falls in. -/
theorem covered (i : S100000x64.Idx) :
    ∃ t : Fin cfg0.N, (cfg0.win 7).flush t = true ∧ i ∈ ((cfg0.win 7).blk t).view.set := by
  have h20 : cfg0.N = 20 := N_0
  have hi0 : (i 0).val < 100000 := (i 0).isLt
  have hi1 : (i 1).val < 64 := (i 1).isLt
  refine ⟨⟨(i 0).val / 5000, by omega⟩, flush0_7 _, ?_⟩
  rw [mem_block]
  obtain ⟨-, -, -, -, -, -, -, -, -, -, -, -, -, -, e0, e1⟩ := block_index ⟨(i 0).val / 5000, by omega⟩
  intro a
  match a with
  | ⟨0, _⟩ =>
    show win0_7.index _ (0 : Fin 2) * 5000 ≤ (i 0).val ∧ (i 0).val < win0_7.index _ (0 : Fin 2) * 5000 + 5000
    rw [e0]; show (i 0).val / 5000 * 5000 ≤ (i 0).val ∧ (i 0).val < (i 0).val / 5000 * 5000 + 5000; omega
  | ⟨1, _⟩ =>
    show win0_7.index _ (1 : Fin 2) * 64 ≤ (i 1).val ∧ (i 1).val < win0_7.index _ (1 : Fin 2) * 64 + 64
    rw [e1]; omega

/-- After the grid the result array holds the node update of the argument arrays. -/
theorem final (c : Dev nD) : (dats m 0 c).arrAt 7 cfg0.N = result m c :=
  (dats m 0 c).arrAt_eq_of_cover 7 (result m c) (fun t _ => written_back m c t) covered

/-- The run of the kernel program: it ends with the result at the node update of the arguments, the arguments
    unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Whole

end
-- ==== Proof.Reference.lean ====
/-
  The reference computes the same function.

  The reference joins each node's features and its aggregated edge features into one row of length 128, multiplies by
  all of the first-layer weights, adds the bias, rectifies, multiplies by the second-layer weights and adds the second
  bias. Read at an index, entry `(i, k)` of the joined array is `x(i,k)` for `k < 64` and `agg(i, k − 64)` from there on, so
  the contraction over its 128 columns splits into the sum over the node's own features against the upper 64 rows of
  the weights plus the sum over the aggregated features against the lower 64 rows — a sum over 128 terms cut into its
  two halves, valid in any commutative additive monoid. The aggregated features are the same scatter-add of the same
  arrays in both programs.
-/
import proofs.«115172_j50371376447827_1_alg».proof.Proof.Gen.ReferenceIdeal.Read
import proofs.«115172_j50371376447827_1_alg».proof.Proof.Mlp
import proofs.«115172_j50371376447827_1_alg».proof.Proof.Entry
import Idealize.ShloMosaic.Lib.Pipeline.Value
import Idealize.ShloMosaic.Lib.ValueIdx

noncomputable section

namespace Cert.ReferenceIdeal.AsMlp

open Cert.ReferenceIdeal Cert.ReferenceIdeal.Gen Cert.ReferenceIdeal.Read Idealize.ShloMosaic
open Idealize.ShloMosaic.ValueIdx

/-- The reference's aggregated edge features are the kernel program's: one scatter-add of the same operands. -/
theorem agg_eq (x1 : (⟨S2x1600000, .i32⟩ : BufTy).Contents (Elt Ideal)) (x2 : (⟨S1600000x64, .f32⟩ : BufTy).Contents (Elt Ideal)) :
    val_main_v4 (F := Ideal) x1 x2 = Cert.KernelIdeal.Entry.agg x1 x2 := rfl

variable (x0 : (⟨S100000x64, .f32⟩ : BufTy).Contents (Elt Ideal)) (x1 : (⟨S2x1600000, .i32⟩ : BufTy).Contents (Elt Ideal))
  (x2 : (⟨S1600000x64, .f32⟩ : BufTy).Contents (Elt Ideal))

/-- In its first 64 columns the joined array is the node features. -/
theorem joined_lo (i : Fin 100000) (k : Fin 64) :
    val_main_v5 (F := Ideal) x0 x1 x2 (ix2 i (Cert.Mlp.lo k)) = x0 (ix2 i k) := by
  unfold val_main_v5
  exact concatenate_pair_apply_left (t := S100000x128) (s₁ := S100000x64) (s₂ := S100000x64) (1 : Fin 2) x0
    (val_main_v4 (F := Ideal) x1 x2) concatenates_S100000x64_S100000x64_S100000x128_d1
    (ix2 i (Cert.Mlp.lo k)) rfl (ix2 i k) (fun b => by match b with | ⟨0, _⟩ => rfl | ⟨1, _⟩ => rfl)

/-- In its last 64 columns the joined array is the aggregated edge features. -/
theorem joined_hi (i : Fin 100000) (k : Fin 64) :
    val_main_v5 (F := Ideal) x0 x1 x2 (ix2 i (Cert.Mlp.hi k)) = val_main_v4 (F := Ideal) x1 x2 (ix2 i k) := by
  unfold val_main_v5
  exact concatenate_pair_apply_right (t := S100000x128) (s₁ := S100000x64) (s₂ := S100000x64) (1 : Fin 2) x0
    (val_main_v4 (F := Ideal) x1 x2) concatenates_S100000x64_S100000x64_S100000x128_d1
    (ix2 i (Cert.Mlp.hi k)) rfl rfl (ix2 i k)
    (fun b hb => by match b with | ⟨0, _⟩ => rfl | ⟨1, _⟩ => exact absurd rfl hb)
    (by show k.val + 64 = 64 + k.val; omega)

/-- The reference's result is `Cert.Mlp.out` of the node features, the aggregated edge features, the weights and the
    biases. -/
theorem result_eq (x5 : (⟨S128x256, .f32⟩ : BufTy).Contents (Elt Ideal)) (x6 : (⟨S256, .f32⟩ : BufTy).Contents (Elt Ideal))
    (x7 : (⟨S256x64, .f32⟩ : BufTy).Contents (Elt Ideal)) (x8 : (⟨S64, .f32⟩ : BufTy).Contents (Elt Ideal)) :
    val_main_v14 (F := Ideal) x0 x1 x2 x5 x6 x7 x8
      = Cert.Mlp.out x0 (Cert.KernelIdeal.Entry.agg x1 x2) x5 x6 x7 x8 := by
  funext j
  obtain ⟨i, q, rfl⟩ : ∃ (i : Fin 100000) (q : Fin 64), j = ix2 i q := ⟨j 0, j 1, eq_ix2 j⟩
  rw [val_main_v14_apply, val_main_v11_apply, val_main_v13_apply, val_main_v12_apply]
  unfold Cert.Mlp.out
  refine congrArg₂ (· + ·) (Finset.sum_congr rfl fun h _ => ?_)
    (congrArg x8 (funext fun a => Fin.ext (by match a with | ⟨0, _⟩ => rfl)))
  have hl : lidx_main_v11 (ix2 i q) h = ix2 i h :=
    funext fun a => Fin.ext (by match a with | ⟨0, _⟩ => rfl | ⟨1, _⟩ => rfl)
  have hr : ridx_main_v11 (ix2 i q) h = ix2 h q :=
    funext fun a => Fin.ext (by match a with | ⟨0, _⟩ => rfl | ⟨1, _⟩ => rfl)
  rw [hl, hr, val_main_v10_apply, val_main_v9_apply, val_main_v6_apply, val_main_v8_apply, val_main_v7_apply,
    val_main_call0_v0_apply, val_main_call0_cst_apply, Cert.Mlp.sum_halves]
  have il : ∀ k' : Fin 128, lidx_main_v6 (ix2 i h) k' = ix2 i k' := fun k' =>
    funext fun a => Fin.ext (by match a with | ⟨0, _⟩ => rfl | ⟨1, _⟩ => rfl)
  have ir : ∀ k' : Fin 128, ridx_main_v6 (ix2 i h) k' = ix2 k' h := fun k' =>
    funext fun a => Fin.ext (by match a with | ⟨0, _⟩ => rfl | ⟨1, _⟩ => rfl)
  have ib : idx_main_v7 (idx_main_v8 (ix2 i h)) = ix1 h :=
    funext fun a => Fin.ext (by match a with | ⟨0, _⟩ => rfl)
  simp only [il, ir, ib, joined_lo, joined_hi, agg_eq]
  unfold Cert.Mlp.hidden
  rfl

end Cert.ReferenceIdeal.AsMlp

end
-- ==== Proof.lean ====
/-
  The certificate's claim: the tiled two-layer node update equals its plain reference on the extended reals.

  Both programs first add every edge's feature row into the row of its source node (the same scatter-add of the same
  arrays, kept as one term `agg` and never opened). The kernel then, for each block of 5000 nodes, multiplies the node
  features by the upper 64 rows of the first-layer weights and the aggregated features by the lower 64 rows, adds the
  two products and the bias, rectifies, multiplies by the second-layer weights and adds the second bias. The reference
  joins features and aggregate into rows of length 128 and multiplies by all 128 rows of the first-layer weights at once.
  On the extended reals the roundings to bf16 are the identity and every matrix product is the plain sum over its
  contracted axis, so the two differ only in that a sum over 128 terms is taken as the sum of its first 64 and its last
  64 terms — an identity of commutative additive monoids, which holds with infinite entries too: the finiteness of the
  inputs is not used. Both programs therefore end with `Cert.Mlp.out` of the argument arrays.

  `Cert.Mlp` states that function; `Cert.KernelIdeal.Point` reads the kernel body's stored value at an entry;
  `Cert.KernelIdeal.Entry` reads the arrays the host prepared for the grid; `Cert.KernelIdeal.Whole` passes from the 20
  row blocks to the whole result array; `Cert.ReferenceIdeal.AsMlp` reads the reference index by index. The three
  programs terminate with their arguments unchanged by their runs; the idealized kernel is the kernel's own text read
  on the extended reals (nothing was rewritten), so there is nothing to preserve.
-/
import proofs.«115172_j50371376447827_1_alg».proof.Defs
import proofs.«115172_j50371376447827_1_alg».proof.Proof.Gen.Kernel
import proofs.«115172_j50371376447827_1_alg».proof.Proof.Gen.Kernel.Frame
import proofs.«115172_j50371376447827_1_alg».proof.Proof.Gen.KernelIdeal
import proofs.«115172_j50371376447827_1_alg».proof.Proof.Gen.KernelIdeal.Frame
import proofs.«115172_j50371376447827_1_alg».proof.Proof.Gen.KernelIdeal.Value
import proofs.«115172_j50371376447827_1_alg».proof.Proof.Gen.ReferenceIdeal
import proofs.«115172_j50371376447827_1_alg».proof.Proof.Gen.ReferenceIdeal.Run
import proofs.«115172_j50371376447827_1_alg».proof.Proof.Gen.ReferenceIdeal.Read
import proofs.«115172_j50371376447827_1_alg».proof.Proof.Gen.Pre_finite_inputs
import proofs.«115172_j50371376447827_1_alg».proof.Proof.Whole
import proofs.«115172_j50371376447827_1_alg».proof.Proof.Reference

noncomputable section

namespace Cert.Proof

open Idealize.ShloMosaic Idealize.ShloMosaic.TcCoe Idealize.SL.Sem

/-- The kernel as printed terminates and leaves its arguments unchanged. -/
theorem frame_kernel : @Cert.frame_Kernel Cert.Kernel.Gen.facts Cert.Pre_finite_inputs.Gen.facts :=
  fun m ρ _ => Cert.Kernel.Gen.frame m ρ

/-- So does the kernel read on the extended reals. -/
theorem frame_kernelIdeal : @Cert.frame_KernelIdeal Cert.KernelIdeal.Gen.facts Cert.Pre_finite_inputs.Gen.facts :=
  fun m ρ _ => Cert.KernelIdeal.Gen.frame m ρ

/-- And the reference: its run, with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories agreeing on the arguments both programs end with `Cert.Mlp.out` of those arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, -, -, a5, a6, a7, a8⟩ := hagree c
  rw [Cert.ReferenceIdeal.Read.val_main_v14_eq, Cert.ReferenceIdeal.AsMlp.result_eq, a0, a1, a2, a5, a6, a7, a8]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
